-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x4 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x4 : Shape := ⟨2, ![2048, 4]⟩
abbrev S2048 : Shape := ⟨1, ![2048]⟩
abbrev S4x2048 : Shape := ⟨2, ![4, 2048]⟩
abbrev S1x2048 : Shape := ⟨2, ![1, 2048]⟩
abbrev S1x512x2048 : Shape := ⟨3, ![1, 512, 2048]⟩
abbrev S8x2048 : Shape := ⟨2, ![8, 2048]⟩
abbrev S520x2048 : Shape := ⟨2, ![520, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S4x2048, .f32⟩
  | .hbm, ⟨4, _⟩ => ⟨S1x2048, .f32⟩
  | .hbm, ⟨5, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S1x2048, .f32⟩
  | .local _ .vmem, ⟨4, _⟩ => ⟨S1x512x2048, .f32⟩
  | .local _ .vmem, ⟨5, _⟩ => ⟨S1x512x2048, .f32⟩
  | .local _ .vmem, ⟨6, _⟩ => ⟨S8x2048, .f32⟩
  | .local _ .vmem, ⟨7, _⟩ => ⟨S520x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x4_S4x2048_1_0 : S2048x4.Transposes [1, 0] S4x2048
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S520x2048_S8x2048_0_0 : ∀ a, (![0, 0] : Fin 2 → Nat) a + S8x2048.size a ≤ S520x2048.size a
  inb_S520x2048_S512x2048_8_0 : ∀ a, (![8, 0] : Fin 2 → Nat) a + S512x2048.size a ≤ S520x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S520x2048_S512x2048_5_0 : ∀ a, (![5, 0] : Fin 2 → Nat) a + S512x2048.size a ≤ S520x2048.size a
  inb_S4x2048_S1x2048_0_0 : ∀ a, (![0, 0] : Fin 2 → Nat) a + S1x2048.size a ≤ S4x2048.size a
  shapeCasts_S1x2048_S2048 : S1x2048.ShapeCasts S2048
  inb_S520x2048_S512x2048_6_0 : ∀ a, (![6, 0] : Fin 2 → Nat) a + S512x2048.size a ≤ S520x2048.size a
  inb_S4x2048_S1x2048_1_0 : ∀ a, (![1, 0] : Fin 2 → Nat) a + S1x2048.size a ≤ S4x2048.size a
  inb_S520x2048_S512x2048_7_0 : ∀ a, (![7, 0] : Fin 2 → Nat) a + S512x2048.size a ≤ S520x2048.size a
  inb_S4x2048_S1x2048_2_0 : ∀ a, (![2, 0] : Fin 2 → Nat) a + S1x2048.size a ≤ S4x2048.size a
  inb_S4x2048_S1x2048_3_0 : ∀ a, (![3, 0] : Fin 2 → Nat) a + S1x2048.size a ≤ S4x2048.size a
  shapeCasts_S512x2048_S1x512x2048 : S512x2048.ShapeCasts S1x512x2048
  slices_S512x2048_o504_0_S8x2048 : S512x2048.Slices ![504, 0] S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x4096x2048.size a
  hwx0_3 : ∀ i : grid0.Coords, EltTy.bits .f32 = 32 ∨ (Rect.block (s := S4x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩
abbrev S4x4099x2048 : Shape := ⟨3, ![4, 4099, 2048]⟩
abbrev S2048x1 : Shape := ⟨2, ![2048, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S4x4099x2048, .f32⟩
  | .hbm, ⟨6, _⟩ => ⟨S4x4096x2048, .f32⟩
  | .hbm, ⟨7, _⟩ => ⟨S2048x1, .f32⟩
  | .hbm, ⟨8, _⟩ => ⟨S2048, .f32⟩
  | .hbm, ⟨9, _⟩ => ⟨S1x1x2048, .f32⟩
  | .hbm, ⟨10, _⟩ => ⟨S4x4096x2048, .f32⟩
  | .hbm, ⟨11, _⟩ => ⟨S4x4096x2048, .f32⟩
  | .hbm, ⟨12, _⟩ => ⟨S1x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S2048x1, .f32⟩
  | .hbm, ⟨17, _⟩ => ⟨S2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S2048x1, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S2048x1, .f32⟩
  | .hbm, ⟨31, _⟩ => ⟨S2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.Body.lean ====
/-
  What one run of the kernel body leaves behind, as values.

  The body keeps a staging array of 520 rows: rows 0–7 receive the history (the last eight rows of the tile before, or
  zeros at the first tile of a batch) and rows 8–519 the current tile of 512 rows. Tap `k` of the convolution is the
  window of 512 rows that starts at row `5 + k`, so output row `r` reads staging rows `5 + r … 8 + r`: the current
  row and the three before it, reaching into the history for `r < 3`. The output block is

      bias + window₅ · w₀ + window₆ · w₁ + window₇ · w₂ + window₈ · w₃     (added in this order),

  and the history the body leaves for the next point is the last eight rows of the current tile.
-/
import proofs.«154310_j78855599554935_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The staging array after its two stores: the history `h` in rows 0–7, the tile `x` in rows 8–519. -/
def staged (h : Vec F S8x2048 .f32) (x : Vec F S512x2048 .f32) : S520x2048.Idx → Elt F .f32 :=
  View.canon (Val := Elt F)
    [⟨Rect.unit ![8, 0] ![512, 2048] inb_S520x2048_S512x2048_8_0, x⟩,
      ⟨Rect.unit ![0, 0] ![8, 2048] inb_S520x2048_S8x2048_0_0, h⟩]

/-- The 512 rows of an array of 520 rows that start at row `J`. -/
def window (E : S520x2048.Idx → Elt F .f32) (J : Nat)
    (inb : ∀ a, (![J, 0] : Fin 2 → Nat) a + S512x2048.size a ≤ S520x2048.size a) : Vec F S512x2048 .f32 :=
  fun j => E ((Rect.unit (s := S520x2048) ![J, 0] S512x2048.size inb).idx j)

/-- The output block of one point: from the tile `x0`, the four weight rows `x1`, the bias row `x2` and the history `h`. -/
def body (x0 : Vec F S1x512x2048 .f32) (x1 : Vec F S4x2048 .f32) (x2 : Vec F S1x2048 .f32) (h : Vec F S8x2048 .f32) :
    Vec F S1x512x2048 .f32 :=
  k0_pay1
    (k0_pay7 x2
      (window (staged h (k0_pay6 x0)) 5 inb_S520x2048_S512x2048_5_0)
      (View.ld x1 (Rect.unit ![0, 0] ![1, 2048] inb_S4x2048_S1x2048_0_0))
      (window (staged h (k0_pay6 x0)) 6 inb_S520x2048_S512x2048_6_0)
      (View.ld x1 (Rect.unit ![1, 0] ![1, 2048] inb_S4x2048_S1x2048_1_0)))
    (window (staged h (k0_pay6 x0)) 7 inb_S520x2048_S512x2048_7_0)
    (View.ld x1 (Rect.unit ![2, 0] ![1, 2048] inb_S4x2048_S1x2048_2_0))
    (window (staged h (k0_pay6 x0)) 8 inb_S520x2048_S512x2048_8_0)
    (View.ld x1 (Rect.unit ![3, 0] ![1, 2048] inb_S4x2048_S1x2048_3_0))

/-- The history a point leaves: the last eight rows of its tile. -/
def lastRows (x0 : Vec F S1x512x2048 .f32) : Vec F S8x2048 .f32 := k0_pay2 (k0_pay4 x0)

/-! ## The four found pieces -/

/-- At a point that is not the first of its batch the output block is the body's value over the history held. -/
theorem out_B (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S8x2048 .f32) (h6 : a6.IsWhole) (a7 : Memref sig .tc .vmem S520x2048 .f32) (h7 : a7.IsWhole) (hc0 : ¬cond0_0 i)
    (x0 : Vec F S1x512x2048 .f32) (x1 : Vec F S4x2048 .f32) (x2 : Vec F S1x2048 .f32) (xs0 : Vec F S8x2048 .f32) :
    out0_B_3 c i a2 h2 a3 h3 a4 h4 a5 h5 a6 h6 a7 h7 hc0 x0 x1 x2 xs0 = body x0 x1 x2 (k0_pay5 xs0) := by
  unfold out0_B_3
  rw [View.read_writes_eq_canon _ _ _ (cover0_B_3 c i a2 h2 a3 h3 a4 h4 a5 h5 a6 h6 a7 h7 hc0 x0 x1 x2 xs0)]
  unfold kernelRun0_B
  dsimp only
  sl_unfold_words
  rw [View.canon_unit_zero hz3]
  simp only [View.readAt_eq_ld, h2.read_unread, h3.read_unread, h4.read_unread, h6.read_unread,
    View.ld_unit_zero (S := S1x512x2048) hz3, View.ld_unit_zero (S := S8x2048) hz2,
    View.ld_unit_zero (S := S1x2048) hz2, View.readCov_eq_canon']
  unfold body window staged
  rfl

/-- … and the history it leaves is the last eight rows of its tile. -/
theorem sout_B (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S8x2048 .f32) (h6 : a6.IsWhole) (a7 : Memref sig .tc .vmem S520x2048 .f32) (h7 : a7.IsWhole) (hc0 : ¬cond0_0 i)
    (x0 : Vec F S1x512x2048 .f32) (x1 : Vec F S4x2048 .f32) (x2 : Vec F S1x2048 .f32) (xs0 : Vec F S8x2048 .f32) :
    sout0_B_0 c i a2 h2 a3 h3 a4 h4 a5 h5 a6 h6 a7 h7 hc0 x0 x1 x2 xs0 = lastRows x0 := by
  unfold sout0_B_0
  rw [View.read_writes_eq_canon _ _ _ (scover0_B_0 c i a2 h2 a3 h3 a4 h4 a5 h5 a6 h6 a7 h7 hc0 x0 x1 x2 xs0)]
  unfold kernelRun0_B
  dsimp only
  sl_unfold_words
  rw [View.canon_unit_zero hz2]
  simp only [View.readAt_eq_ld, h2.read_unread, View.ld_unit_zero (S := S1x512x2048) hz3]
  rfl

/-- At the first point of a batch the history is the zero block the body has just stored. -/
theorem out_A (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S8x2048 .f32) (h6 : a6.IsWhole) (a7 : Memref sig .tc .vmem S520x2048 .f32) (h7 : a7.IsWhole) (hc0 : cond0_0 i)
    (x0 : Vec F S1x512x2048 .f32) (x1 : Vec F S4x2048 .f32) (x2 : Vec F S1x2048 .f32) :
    out0_A_3 c i a2 h2 a3 h3 a4 h4 a5 h5 a6 h6 a7 h7 hc0 x0 x1 x2 = body x0 x1 x2 (k0_pay5 (k0_pay3 (F := F))) := by
  unfold out0_A_3
  rw [View.read_writes_eq_canon _ _ _ (cover0_A_3 c i a2 h2 a3 h3 a4 h4 a5 h5 a6 h6 a7 h7 hc0 x0 x1 x2)]
  unfold kernelRun0_A
  dsimp only
  sl_unfold_words
  rw [View.canon_unit_zero hz3]
  simp only [View.readAt_eq_ld, h2.read_unread, h3.read_unread, h4.read_unread, h6.read_unread,
    View.ld_unit_zero (S := S1x512x2048) hz3, View.ld_unit_zero (S := S8x2048) hz2,
    View.ld_unit_zero (S := S1x2048) hz2, View.readCov_unit_zero (S := S8x2048) _ hz2, View.readCov_eq_canon']
  unfold body window staged
  rfl

theorem sout_A (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S8x2048 .f32) (h6 : a6.IsWhole) (a7 : Memref sig .tc .vmem S520x2048 .f32) (h7 : a7.IsWhole) (hc0 : cond0_0 i)
    (x0 : Vec F S1x512x2048 .f32) (x1 : Vec F S4x2048 .f32) (x2 : Vec F S1x2048 .f32) :
    sout0_A_0 c i a2 h2 a3 h3 a4 h4 a5 h5 a6 h6 a7 h7 hc0 x0 x1 x2 = lastRows x0 := by
  unfold sout0_A_0
  rw [View.read_writes_eq_canon _ _ _ (scover0_A_0 c i a2 h2 a3 h3 a4 h4 a5 h5 a6 h6 a7 h7 hc0 x0 x1 x2)]
  unfold kernelRun0_A
  dsimp only
  sl_unfold_words
  rw [View.canon_cons_unit_zero (S := S8x2048) hz2]
  simp only [View.readAt_eq_ld, h2.read_unread, View.ld_unit_zero (S := S1x512x2048) hz3]
  rfl

end Cert.KernelIdeal.Body

end
-- ==== Proof.BodyAt.lean ====
/-
  One entry of a point's output block, over the extended reals.

  Entry (r, d) of the block is the bias at channel d plus, for the taps k = 0, 1, 2, 3 in this order, staging row
  `5 + k + r` at channel d times weight row k at channel d. A staging row below 8 is a history row; row `8 + q` is
  row q of the current tile.
-/
import proofs.«154310_j78855599554935_2_alg».proof.Proof.Body
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

/-! ## The staging array, row by row -/

/-- Staging row `8 + q` is row `q` of the tile. -/
theorem staged_tile (h : Vec F S8x2048 .f32) (x : Vec F S512x2048 .f32) (q : Fin 512) (d : Fin 2048) (j : Fin 520)
    (hj : j.val = 8 + q.val) : staged h x (ix2 j d) = x (ix2 q d) := by
  have e : (ix2 j d : S520x2048.Idx)
      = (Rect.unit (s := S520x2048) ![8, 0] ![512, 2048] inb_S520x2048_S512x2048_8_0).emb (ix2 q d) := by
    funext a
    apply Fin.ext
    match a with
    | ⟨0, _⟩ => show j.val = 8 + 1 * q.val; omega
    | ⟨1, _⟩ => show d.val = 0 + 1 * d.val; omega
  unfold staged
  rw [e]
  exact View.canon_cons_emb _ _ _ _

/-- Staging row `j < 8` is history row `j`. -/
theorem staged_hist (h : Vec F S8x2048 .f32) (x : Vec F S512x2048 .f32) (g : Fin 8) (d : Fin 2048) (j : Fin 520)
    (hj : j.val = g.val) : staged h x (ix2 j d) = h (ix2 g d) := by
  have e : (ix2 j d : S520x2048.Idx)
      = (Rect.unit (s := S520x2048) ![0, 0] ![8, 2048] inb_S520x2048_S8x2048_0_0).emb (ix2 g d) := by
    funext a
    apply Fin.ext
    match a with
    | ⟨0, _⟩ => show j.val = 0 + 1 * g.val; omega
    | ⟨1, _⟩ => show d.val = 0 + 1 * d.val; omega
  unfold staged
  rw [View.canon_cons_of_not_mem _ _ (by
    rw [Rect.mem_set_unit]
    intro hm
    have h0 : (8 : Nat) ≤ j.val := (hm 0).1
    have := g.isLt
    omega)]
  rw [e]
  exact View.canon_cons_emb _ _ _ _

/-- Row `r` of the window that starts at row `J` is row `J + r`. -/
theorem window_apply (E : S520x2048.Idx → Elt F .f32) (J : Nat)
    (inb : ∀ a, (![J, 0] : Fin 2 → Nat) a + S512x2048.size a ≤ S520x2048.size a) (r : Fin 512) (d : Fin 2048)
    (j : Fin 520) (hj : j.val = J + r.val) : window E J inb (ix2 r d) = E (ix2 j d) := by
  unfold window
  congr 1
  funext a
  apply Fin.ext
  match a with
  | ⟨0, _⟩ => show J + 1 * r.val = j.val; omega
  | ⟨1, _⟩ => show 0 + 1 * d.val = d.val; omega

/-! ## The layout operations of the body, read at an entry -/

/-- Row `k` of the weight block, loaded as a [1, 2048] row. -/
theorem weightRow_apply (x1 : Vec F S4x2048 .f32) (k : Nat) (inb : ∀ a, (![k, 0] : Fin 2 → Nat) a + S1x2048.size a ≤ S4x2048.size a)
    (u : Fin 1) (d : Fin 2048) (k' : Fin 4) (hk : k'.val = k) :
    View.ld x1 (Rect.unit (s := S4x2048) ![k, 0] ![1, 2048] inb) (ix2 u d) = x1 (ix2 k' d) := by
  show x1 _ = x1 _
  congr 1
  funext a
  apply Fin.ext
  match a with
  | ⟨0, _⟩ => show k + 1 * u.val = k'.val; omega
  | ⟨1, _⟩ => show 0 + 1 * d.val = d.val; omega

/-- A [1, 2048] row flattened, unflattened and repeated over 512 rows reads the row at the channel. -/
theorem rowOverTile_apply (v : Vec F S1x2048 .f32) (r : Fin 512) (d : Fin 2048) :
    broadcastTo S512x2048 (shapeCast S1x2048 (shapeCast S2048 v shapeCasts_S1x2048_S2048) shapeCasts_S2048_S1x2048)
      broadcasts_S1x2048_S512x2048 (ix2 r d) = v (ix2 (0 : Fin 1) d) := by
  rw [broadcastTo_1b_ab_apply, shapeCast_a_1a_apply, shapeCast_1a_a_apply]

/-- The bias row repeated over 512 rows reads the row at the channel. -/
theorem biasOverTile_apply (v : Vec F S1x2048 .f32) (r : Fin 512) (d : Fin 2048) :
    broadcastTo S512x2048 (shapeCast S1x2048 (shapeCast S1x2048 v shapeCasts_S1x2048_S1x2048) shapeCasts_S1x2048_S1x2048)
      broadcasts_S1x2048_S512x2048 (ix2 r d) = v (ix2 (0 : Fin 1) d) := by
  rw [broadcastTo_1b_ab_apply, shapeCast_self, shapeCast_self]

/-- The tile as stored into the staging array: the [1, 512, 2048] block without its unit axis. -/
theorem tileRows_apply (x0 : Vec F S1x512x2048 .f32) (q : Fin 512) (d : Fin 2048) :
    k0_pay6 x0 (ix2 q d) = x0 (ix3 (0 : Fin 1) q d) := by
  unfold k0_pay6 k0_pay4
  rw [shapeCast_self, shapeCast_1ab_ab_apply]

/-- The history as stored into the staging array is the history. -/
theorem histRows_eq (xs0 : Vec F S8x2048 .f32) : k0_pay5 xs0 = xs0 := by
  unfold k0_pay5
  rw [shapeCast_self]

/-- The zero block stored at the first point of a batch. -/
theorem zeroRows_apply (g : Fin 8) (d : Fin 2048) : k0_pay3 (F := Ideal) (ix2 g d) = 0 := by
  unfold k0_pay3
  rw [shapeCast_self]
  exact Ideal.ofBits_zero_f32

/-- The history a point leaves, read at an entry: row `504 + g` of its tile. -/
theorem lastRows_apply (x0 : Vec F S1x512x2048 .f32) (g : Fin 8) (d : Fin 2048) (q : Fin 512) (hq : q.val = 504 + g.val) :
    lastRows x0 (ix2 g d) = x0 (ix3 (0 : Fin 1) q d) := by
  unfold lastRows k0_pay2 k0_pay4
  rw [shapeCast_self, slice2_axis0_apply 504 _ _ g d q hq, shapeCast_1ab_ab_apply]

/-! ## One entry of the output block -/

/-- Entry (r, d) of the output block over the extended reals: the bias, then the four staging rows `5 + r … 8 + r`
    times the four weight rows, added first to last. -/
theorem body_apply (x0 : Vec Ideal S1x512x2048 .f32) (x1 : Vec Ideal S4x2048 .f32) (x2 : Vec Ideal S1x2048 .f32)
    (h : Vec Ideal S8x2048 .f32) (u : Fin 1) (r : Fin 512) (d : Fin 2048) :
    body x0 x1 x2 h (ix3 u r d)
      = x2 (ix2 (0 : Fin 1) d)
        + staged h (k0_pay6 x0) (ix2 ⟨5 + r.val, by omega⟩ d) * x1 (ix2 (0 : Fin 4) d)
        + staged h (k0_pay6 x0) (ix2 ⟨6 + r.val, by omega⟩ d) * x1 (ix2 (1 : Fin 4) d)
        + staged h (k0_pay6 x0) (ix2 ⟨7 + r.val, by omega⟩ d) * x1 (ix2 (2 : Fin 4) d)
        + staged h (k0_pay6 x0) (ix2 ⟨8 + r.val, by omega⟩ d) * x1 (ix2 (3 : Fin 4) d) := by
  unfold body k0_pay1 k0_pay7
  dsimp only
  rw [shapeCast_ab_1ab_apply]
  simp only [addf_apply, mulf_apply]
  rw [rowOverTile_apply, rowOverTile_apply, rowOverTile_apply, rowOverTile_apply, biasOverTile_apply,
    window_apply _ 5 _ r d ⟨5 + r.val, by omega⟩ rfl, window_apply _ 6 _ r d ⟨6 + r.val, by omega⟩ rfl,
    window_apply _ 7 _ r d ⟨7 + r.val, by omega⟩ rfl, window_apply _ 8 _ r d ⟨8 + r.val, by omega⟩ rfl,
    weightRow_apply x1 0 _ 0 d 0 rfl, weightRow_apply x1 1 _ 0 d 1 rfl, weightRow_apply x1 2 _ 0 d 2 rfl,
    weightRow_apply x1 3 _ 0 d 3 rfl]

end Cert.KernelIdeal.Body

end
-- ==== Proof.Spec.lean ====
/-
  The function both programs compute: a causal depthwise convolution along the time axis, four taps per channel.

  For an input `x` of shape [4, 4096, 2048] (batch, time, channel), weights `w` of shape [2048, 4] (channel, tap) and a
  bias `b` of shape [2048], the result at (p, t, d) is

      ((((b d + x̄ (t - 3) · w d 0) + x̄ (t - 2) · w d 1) + x̄ (t - 1) · w d 2) + x̄ t · w d 3

  where `x̄ s` is `x p s d` for a time `s ≥ 0` and `0` before the start of the sequence. The sum is written in the
  one order both programs add in, so that no law of the extended reals beyond equality of the terms is needed.
-/
import Idealize.ShloMosaic.PureOps.Ideal
import Idealize.ShloMosaic.Lib.ValueIdx

noncomputable section

namespace Cert.CausalConv

open Idealize.ShloMosaic Idealize.ShloMosaic.ValueIdx

/-- The input's and the result's shape: batch, time, channel. -/
abbrev SX : Shape := ⟨3, ![4, 4096, 2048]⟩
/-- The weights' shape: channel, tap. -/
abbrev SW : Shape := ⟨2, ![2048, 4]⟩
/-- The bias's shape: channel. -/
abbrev SB : Shape := ⟨1, ![2048]⟩

/-- Tap `k` of the window ending at time `t`: the input at time `t + k - 3`, and zero where that is before the
    start of the sequence. -/
def tapAt (x : SX.Idx → Ideal .f32) (k : Fin 4) (p : Fin 4) (t : Fin 4096) (d : Fin 2048) : Ideal .f32 :=
  if h : 3 ≤ t.val + k.val then x (ix3 p ⟨t.val + k.val - 3, by omega⟩ d) else 0

/-- The convolution at the coordinates (p, t, d): the bias, then the four taps added first to last. -/
def convAt (x : SX.Idx → Ideal .f32) (w : SW.Idx → Ideal .f32) (b : SB.Idx → Ideal .f32)
    (p : Fin 4) (t : Fin 4096) (d : Fin 2048) : Ideal .f32 :=
  b (ix1 d) + tapAt x 0 p t d * w (ix2 d 0) + tapAt x 1 p t d * w (ix2 d 1) + tapAt x 2 p t d * w (ix2 d 2)
    + tapAt x 3 p t d * w (ix2 d 3)

/-- The convolution as one function of the three arrays. -/
def conv (x : SX.Idx → Ideal .f32) (w : SW.Idx → Ideal .f32) (b : SB.Idx → Ideal .f32) : SX.Idx → Ideal .f32 :=
  fun i => convAt x w b (i 0) (i 1) (i 2)

theorem conv_ix3 (x : SX.Idx → Ideal .f32) (w : SW.Idx → Ideal .f32) (b : SB.Idx → Ideal .f32)
    (p : Fin 4) (t : Fin 4096) (d : Fin 2048) : conv x w b (ix3 p t d) = convAt x w b p t d := rfl

/-- A tap that reaches back to a time at or after the start reads the input there. -/
theorem tapAt_of_le (x : SX.Idx → Ideal .f32) (k : Fin 4) (p : Fin 4) (t : Fin 4096) (d : Fin 2048)
    (s : Fin 4096) (hs : s.val + 3 = t.val + k.val) : tapAt x k p t d = x (ix3 p s d) := by
  unfold tapAt
  rw [dif_pos (by omega)]
  congr 2
  exact Fin.ext (by show t.val + k.val - 3 = s.val; omega)

/-- A tap that reaches back before the start is zero. -/
theorem tapAt_of_lt (x : SX.Idx → Ideal .f32) (k : Fin 4) (p : Fin 4) (t : Fin 4096) (d : Fin 2048)
    (h : t.val + k.val < 3) : tapAt x k p t d = 0 := by
  unfold tapAt
  rw [dif_neg (by omega)]

end Cert.CausalConv

end
-- ==== Proof.Taps.lean ====
/-
  A staging row is a tap of the convolution.

  At a tile that starts at time `base` of batch `p`, staging row `8 + q` holds the input at time `base + q`, and the
  history rows 5, 6, 7 hold the input at times `base - 3`, `base - 2`, `base - 1` — or zeros when `base = 0`. Output
  row `q` reads, for tap `k`, staging row `5 + k + q`: the input at time `base + q + k - 3`, or zero before the start
  of the sequence. That is tap `k` of the window ending at time `base + q`.
-/
import proofs.«154310_j78855599554935_2_alg».proof.Proof.BodyAt
import proofs.«154310_j78855599554935_2_alg».proof.Proof.Spec

noncomputable section

open Idealize.ShloMosaic Idealize.ShloMosaic.TcCoe Idealize.SL.Sem Idealize.ShloMosaic.ValueIdx

namespace Cert.KernelIdeal.Body

open Cert.KernelIdeal Cert.KernelIdeal.Gen Cert.CausalConv

theorem staged_eq_tap (X : SX.Idx → Ideal .f32) (p : Fin 4) (base : Nat) (hbase : base + 512 ≤ 4096)
    (x0 : Vec Ideal S1x512x2048 .f32) (h : Vec Ideal S8x2048 .f32)
    (hx0 : ∀ (q : Fin 512) (d : Fin 2048), x0 (ix3 (0 : Fin 1) q d) = X (ix3 p ⟨base + q.val, by omega⟩ d))
    (hh0 : base = 0 → ∀ (g : Fin 8) (d : Fin 2048), h (ix2 g d) = 0)
    (hh1 : ∀ (hb : 8 ≤ base) (g : Fin 8) (d : Fin 2048),
      h (ix2 g d) = X (ix3 p ⟨base + g.val - 8, by have := g.isLt; omega⟩ d))
    (hcase : base = 0 ∨ 8 ≤ base)
    (k : Fin 4) (q : Fin 512) (d : Fin 2048) (j : Fin 520) (hj : j.val = 5 + k.val + q.val) :
    staged h (k0_pay6 x0) (ix2 j d) = tapAt X k p ⟨base + q.val, by omega⟩ d := by
  have hk := k.isLt
  have hq := q.isLt
  by_cases hqk : 3 ≤ q.val + k.val
  · rw [staged_tile h _ ⟨q.val + k.val - 3, by omega⟩ d j (by show j.val = 8 + (q.val + k.val - 3); omega),
      tileRows_apply, hx0,
      tapAt_of_le X k p _ d ⟨base + (q.val + k.val - 3), by omega⟩ (by show base + (q.val + k.val - 3) + 3 = base + q.val + k.val; omega)]
  · rw [staged_hist h _ ⟨5 + k.val + q.val, by omega⟩ d j hj]
    rcases hcase with hb | hb
    · rw [hh0 hb, tapAt_of_lt X k p _ d (by show base + q.val + k.val < 3; omega)]
    · rw [hh1 hb,
        tapAt_of_le X k p _ d ⟨base + (5 + k.val + q.val) - 8, by omega⟩ (by show base + (5 + k.val + q.val) - 8 + 3 = base + q.val + k.val; omega)]

/-- So one entry of the output block is the convolution at the entry's place in the array. -/
theorem body_eq_convAt (X : SX.Idx → Ideal .f32) (W : SW.Idx → Ideal .f32) (B : SB.Idx → Ideal .f32)
    (p : Fin 4) (base : Nat) (hbase : base + 512 ≤ 4096)
    (x0 : Vec Ideal S1x512x2048 .f32) (x1 : Vec Ideal S4x2048 .f32) (x2 : Vec Ideal S1x2048 .f32) (h : Vec Ideal S8x2048 .f32)
    (hx0 : ∀ (q : Fin 512) (d : Fin 2048), x0 (ix3 (0 : Fin 1) q d) = X (ix3 p ⟨base + q.val, by omega⟩ d))
    (hx1 : ∀ (k : Fin 4) (d : Fin 2048), x1 (ix2 k d) = W (ix2 d k))
    (hx2 : ∀ d : Fin 2048, x2 (ix2 (0 : Fin 1) d) = B (ix1 d))
    (hh0 : base = 0 → ∀ (g : Fin 8) (d : Fin 2048), h (ix2 g d) = 0)
    (hh1 : ∀ (hb : 8 ≤ base) (g : Fin 8) (d : Fin 2048),
      h (ix2 g d) = X (ix3 p ⟨base + g.val - 8, by have := g.isLt; omega⟩ d))
    (hcase : base = 0 ∨ 8 ≤ base) (u : Fin 1) (q : Fin 512) (d : Fin 2048) :
    body x0 x1 x2 h (ix3 u q d) = convAt X W B p ⟨base + q.val, by omega⟩ d := by
  have hq := q.isLt
  rw [body_apply, hx2, hx1, hx1, hx1, hx1,
    staged_eq_tap X p base hbase x0 h hx0 hh0 hh1 hcase 0 q d ⟨5 + q.val, by omega⟩ rfl,
    staged_eq_tap X p base hbase x0 h hx0 hh0 hh1 hcase 1 q d ⟨6 + q.val, by omega⟩ rfl,
    staged_eq_tap X p base hbase x0 h hx0 hh0 hh1 hcase 2 q d ⟨7 + q.val, by omega⟩ rfl,
    staged_eq_tap X p base hbase x0 h hx0 hh0 hh1 hcase 3 q d ⟨8 + q.val, by omega⟩ rfl]
  rfl

end Cert.KernelIdeal.Body

end
-- ==== Proof.Blocks.lean ====
/-
  The blocks a grid point works on, read at an entry.

  The grid has 32 points: point `t` works on batch `t / 8` and on the tile of times `512 (t % 8) … 512 (t % 8) + 511`.
  Its tile block is those rows of the input; its weight block is the whole transposed weight array, [4, 2048], whose
  entry (k, d) is weight (d, k); its bias block is the bias as one row.
-/
import proofs.«154310_j78855599554935_2_alg».proof.Proof.Taps
import proofs.«154310_j78855599554935_2_alg».proof.Proof.Gen.KernelIdeal.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.KernelIdeal.Body Cert.CausalConv

variable (m : (ℓ : Loc nD τ sig) → Buf (Elt Ideal) ℓ) (ρ : Dev nD → PrngReg)

/-- The printed index maps, decided over the 32 points: the tile and output windows move with (batch, tile), the
    weight and bias windows stay. -/
theorem idx_facts : ∀ t : Fin cfg0.N,
    win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The arrays the region finds, and the blocks of a point -/

/-- The weight array the region finds is the transposed weights. -/
theorem V_weights (c : Dev nD) : (V m c main_v0 : S4x2048.Idx → Ideal .f32)
    = transpose S4x2048 [1, 0] (m ((c : Thread nD τ).loc main_arg1)) transposes_S2048x4_S4x2048_1_0 := by
  dsimp only [Gen.V, Gen.hostOps0]; after_results

/-- The bias array the region finds is the bias as one row. -/
theorem V_bias (c : Dev nD) : (V m c main_v1 : S1x2048.Idx → Ideal .f32)
    = shapeCast S1x2048 (m ((c : Thread nD τ).loc main_arg2)) shapeCasts_S2048_S1x2048 := by
  dsimp only [Gen.V, Gen.hostOps0]; after_results; rfl

/-- The tile block of point `t` at (q, d): the input at batch `t / 8`, time `512 (t % 8) + q`. -/
theorem tile_apply (c : Dev nD) (t : Fin cfg0.N) (u : Fin 1) (q : Fin 512) (d : Fin 2048) (p : Fin 4) (s : Fin 4096)
    (hp : p.val = t.val / 8) (hs : s.val = t.val % 8 * 512 + q.val) :
    (iblk m c 0 t : S1x512x2048.Idx → Ideal .f32) (ix3 u q d) = (m ((c : Thread nD τ).loc main_arg0)) (ix3 p s d) := by
  obtain ⟨e0, e1, e2, -⟩ := idx_facts t
  show V m c main_arg0 (((cfg0.win 0).blk t).view.emb (ix3 u q d)) = _
  rw [V_main_arg0]
  congr 1
  funext a
  apply Fin.ext
  match a with
  | ⟨0, _⟩ => show win0_0.index t (0 : Fin 3) * 1 + 1 * u.val = p.val; have := u.isLt; omega
  | ⟨1, _⟩ => show win0_0.index t (1 : Fin 3) * 512 + 1 * q.val = s.val; omega
  | ⟨2, _⟩ => show win0_0.index t (2 : Fin 3) * 2048 + 1 * d.val = d.val; omega

/-- The weight block of any point at (k, d): weight (d, k). -/
theorem weights_apply (c : Dev nD) (t : Fin cfg0.N) (k : Fin 4) (d : Fin 2048) :
    (iblk m c 1 t : S4x2048.Idx → Ideal .f32) (ix2 k d) = (m ((c : Thread nD τ).loc main_arg1)) (ix2 d k) := by
  obtain ⟨-, -, -, -, -, -, e0, e1, -⟩ := idx_facts t
  show V m c main_v0 (((cfg0.win 1).blk t).view.emb (ix2 k d)) = _
  have e : ((cfg0.win 1).blk t).view.emb (ix2 k d) = (ix2 k d : S4x2048.Idx) := by
    funext a
    apply Fin.ext
    match a with
    | ⟨0, _⟩ => show win0_1.index t (0 : Fin 2) * 4 + 1 * k.val = k.val; omega
    | ⟨1, _⟩ => show win0_1.index t (1 : Fin 2) * 2048 + 1 * d.val = d.val; omega
  rw [e, V_weights, transpose_ix2_apply]

/-- The bias block of any point at (0, d): bias d. -/
theorem bias_apply (c : Dev nD) (t : Fin cfg0.N) (d : Fin 2048) :
    (iblk m c 2 t : S1x2048.Idx → Ideal .f32) (ix2 (0 : Fin 1) d) = (m ((c : Thread nD τ).loc main_arg2)) (ix1 d) := by
  obtain ⟨-, -, -, -, -, -, -, -, e0, e1⟩ := idx_facts t
  show V m c main_v1 (((cfg0.win 2).blk t).view.emb (ix2 (0 : Fin 1) d)) = _
  have e : ((cfg0.win 2).blk t).view.emb (ix2 (0 : Fin 1) d) = (ix2 (0 : Fin 1) d : S1x2048.Idx) := by
    funext a
    apply Fin.ext
    match a with
    | ⟨0, _⟩ => show win0_2.index t (0 : Fin 2) * 1 + 1 * 0 = 0; omega
    | ⟨1, _⟩ => show win0_2.index t (1 : Fin 2) * 2048 + 1 * d.val = d.val; omega
  rw [e, V_bias, shapeCast_a_1a_apply]

end Cert.KernelIdeal.ConvValue

end
-- ==== Proof.PointValue.lean ====
/-
  What a grid point leaves, as values.

  After any point the carried history is the last eight rows of that point's tile. So the history a point finds is
  zero at the first tile of a batch (the body has just stored it) and otherwise rows 504–511 of the tile before, which
  belongs to the same batch: the input at the eight times in front of the current tile. With that, every entry of the
  point's output block is the convolution at the entry's place in the result array.
-/
import proofs.«154310_j78855599554935_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.KernelIdeal.Body Cert.CausalConv

variable (m : (ℓ : Loc nD τ sig) → Buf (Elt Ideal) ℓ) (ρ : Dev nD → PrngReg)

/-! ## What a point leaves -/

/-- After any point the carried history is the last eight rows of that point's tile. -/
theorem hist_after (c : Dev nD) (t : Fin cfg0.N) : (outsAt0 m c t.val t.isLt).2 = lastRows (iblk m c 0 t) := by
  by_cases h0 : t.val % 8 = 0
  · rw [outsAt0_A m c t h0, sout_A]
  · rw [outsAt0_B m c t h0, sout_B]

/-- After any point its output block holds the convolution at the block's entries. -/
theorem out_after_apply (c : Dev nD) (t : Fin cfg0.N) (u : Fin 1) (q : Fin 512) (d : Fin 2048) (p : Fin 4)
    (hp : p.val = t.val / 8) :
    ((outsAt0 m c t.val t.isLt).1 : S1x512x2048.Idx → Ideal .f32) (ix3 u q d)
      = convAt (m ((c : Thread nD τ).loc main_arg0)) (m ((c : Thread nD τ).loc main_arg1)) (m ((c : Thread nD τ).loc main_arg2)) p
          ⟨t.val % 8 * 512 + q.val, by have := q.isLt; have := Nat.mod_lt t.val (show 0 < 8 by decide); omega⟩ d := by
  have hN : t.val < 32 := lt_of_lt_of_eq t.isLt (show cfg0.N = 32 from N_0)
  have hq := q.isLt
  have hbase : t.val % 8 * 512 + 512 ≤ 4096 := by omega
  have hx0 : ∀ (q : Fin 512) (d : Fin 2048), (iblk m c 0 t : S1x512x2048.Idx → Ideal .f32) (ix3 (0 : Fin 1) q d)
      = (m ((c : Thread nD τ).loc main_arg0)) (ix3 p ⟨t.val % 8 * 512 + q.val, by have := q.isLt; omega⟩ d) :=
    fun q d => tile_apply m c t 0 q d p _ hp rfl
  by_cases h0 : t.val % 8 = 0
  · rw [outsAt0_A m c t h0]
    rw [out_A, histRows_eq]
    dsimp only
    refine body_eq_convAt (m ((c : Thread nD τ).loc main_arg0)) (m ((c : Thread nD τ).loc main_arg1)) (m ((c : Thread nD τ).loc main_arg2)) p (t.val % 8 * 512) hbase (iblk m c 0 t) (iblk m c 1 t) (iblk m c 2 t) _
      hx0 (weights_apply m c t) (bias_apply m c t) (fun _ g d => ?_) (fun hb => ?_) (Or.inl ?_) u q d
    · exact zeroRows_apply g d
    · exfalso; omega
    · omega
  · rw [outsAt0_B m c t h0]
    rw [out_B, histRows_eq, hist_after m c ⟨t.val - 1, Nat.lt_of_le_of_lt (Nat.sub_le _ _) t.isLt⟩]
    dsimp only
    refine body_eq_convAt (m ((c : Thread nD τ).loc main_arg0)) (m ((c : Thread nD τ).loc main_arg1)) (m ((c : Thread nD τ).loc main_arg2)) p (t.val % 8 * 512) hbase (iblk m c 0 t) (iblk m c 1 t) (iblk m c 2 t) _
      hx0 (weights_apply m c t) (bias_apply m c t) (fun hb => ?_) (fun hb g d => ?_) (Or.inr ?_) u q d
    · exfalso; omega
    swap
    · omega
    have hg := g.isLt
    rw [lastRows_apply _ g d ⟨504 + g.val, by omega⟩ rfl,
      tile_apply m c ⟨t.val - 1, Nat.lt_of_le_of_lt (Nat.sub_le _ _) t.isLt⟩ 0 ⟨504 + g.val, by omega⟩ d p
        ⟨t.val % 8 * 512 + g.val - 8, by omega⟩ (by show p.val = (t.val - 1) / 8; omega)
        (by show t.val % 8 * 512 + g.val - 8 = (t.val - 1) % 8 * 512 + (504 + g.val); omega)]

end Cert.KernelIdeal.ConvValue

end
-- ==== Proof.KernelValue.lean ====
/-
  The kernel's result array is the convolution of its three arguments: what each point writes back is its block of
  that one function, and the 32 blocks tile the array — entry (p, s, d) lies in the block of point `8 p + s / 512`.
-/
import proofs.«154310_j78855599554935_2_alg».proof.Proof.PointValue

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.KernelIdeal.Body Cert.CausalConv

variable (m : (ℓ : Loc nD τ sig) → Buf (Elt Ideal) ℓ) (ρ : Dev nD → PrngReg)

/-! ## From the blocks to the array -/

/-- What point `t` writes back is block `t` of the convolution of the argument arrays. -/
theorem flushed_eq (c : Dev nD) (t : Fin cfg0.N) :
    (dats m 0 c).flushed 3 t = ((cfg0.win 3).blk t).view.read (Elt Ideal) (conv (m ((c : Thread nD τ).loc main_arg0)) (m ((c : Thread nD τ).loc main_arg1)) (m ((c : Thread nD τ).loc main_arg2))) := by
  have hN : t.val < 32 := lt_of_lt_of_eq t.isLt (show cfg0.N = 32 from N_0)
  obtain ⟨-, -, -, e0, e1, e2, -⟩ := idx_facts t
  rw [Value.flushed3]
  funext j
  obtain ⟨u, q, d, rfl⟩ : ∃ (u : Fin 1) (q : Fin 512) (d : Fin 2048), (j : S1x512x2048.Idx) = ix3 u q d :=
    ⟨j 0, j 1, j 2, eq_ix3 (n0 := 1) (n1 := 512) (n2 := 2048) j⟩
  have hq := q.isLt
  show ((outsAt0 m c t.val t.isLt).1 : S1x512x2048.Idx → Ideal .f32) (ix3 u q d)
    = conv (m ((c : Thread nD τ).loc main_arg0)) (m ((c : Thread nD τ).loc main_arg1)) (m ((c : Thread nD τ).loc main_arg2)) (((cfg0.win 3).blk t).view.emb (ix3 u q d))
  have e : ((cfg0.win 3).blk t).view.emb (ix3 u q d)
      = (ix3 (⟨t.val / 8, by omega⟩ : Fin 4) (⟨t.val % 8 * 512 + q.val, by omega⟩ : Fin 4096) d : S4x4096x2048.Idx) := by
    funext a
    apply Fin.ext
    match a with
    | ⟨0, _⟩ => show win0_3.index t (0 : Fin 3) * 1 + 1 * u.val = t.val / 8; have := u.isLt; omega
    | ⟨1, _⟩ => show win0_3.index t (1 : Fin 3) * 512 + 1 * q.val = t.val % 8 * 512 + q.val; omega
    | ⟨2, _⟩ => show win0_3.index t (2 : Fin 3) * 2048 + 1 * d.val = d.val; omega
  rw [e, conv_ix3]
  exact out_after_apply m c t u q d ⟨t.val / 8, by omega⟩ rfl

/-- An index of the result array is in point `t`'s block iff each coordinate is in the block's range. -/
theorem mem_blk (t : Fin cfg0.N) (i : S4x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v2).slice (win0_3.rect t)).set ↔ _
  rw [View.set_slice_whole, Rect.mem_set_unit]
  exact Iff.rfl

/-- The result array after the run is the convolution: entry (p, s, d) is written by point `8 p + s / 512`. -/
theorem final (c : Dev nD) : (dats m 0 c).arrAt 3 cfg0.N = conv (m ((c : Thread nD τ).loc main_arg0)) (m ((c : Thread nD τ).loc main_arg1)) (m ((c : Thread nD τ).loc main_arg2)) :=
  (dats m 0 c).arrAt_eq_of_cover 3 _ (fun t _ => flushed_eq m c t) fun i => by
    have h0 : (i 0).val < 4 := (i 0).isLt
    have h1 : (i 1).val < 4096 := (i 1).isLt
    have h2 : (i 2).val < 2048 := (i 2).isLt
    have hN : cfg0.N = 32 := N_0
    refine ⟨⟨(i 0).val * 8 + (i 1).val / 512, by omega⟩, flush0_3 _, ?_⟩
    obtain ⟨-, -, -, e0, e1, e2, -⟩ := idx_facts ⟨(i 0).val * 8 + (i 1).val / 512, by omega⟩
    rw [mem_blk]
    intro a
    match a with
    | ⟨0, _⟩ =>
      show win0_3.index _ (0 : Fin 3) * 1 ≤ (i 0).val ∧ (i 0).val < win0_3.index _ (0 : Fin 3) * 1 + 1
      rw [e0]; dsimp only; omega
    | ⟨1, _⟩ =>
      show win0_3.index _ (1 : Fin 3) * 512 ≤ (i 1).val ∧ (i 1).val < win0_3.index _ (1 : Fin 3) * 512 + 512
      rw [e1]; dsimp only; omega
    | ⟨2, _⟩ =>
      show win0_3.index _ (2 : Fin 3) * 2048 ≤ (i 2).val ∧ (i 2).val < win0_3.index _ (2 : Fin 3) * 2048 + 2048
      rw [e2]; omega

/-- The kernel's run, read: the result array at the convolution of the arguments, the arguments unchanged. -/
theorem run : θ_run defs (onTc (τ := τ) (main (F := Ideal))) ⟨m, fun _ => 0, ρ⟩ fun r => ∀ c : Dev nD,
      r.2.mem ((c : Thread nD τ).loc main_v2) = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ConvValue

end
-- ==== Proof.RefValue.lean ====
/-
  The reference read at an index: it pads the input with three zero rows in front of the time axis, takes the four
  windows of 4096 rows that start at rows 0, 1, 2, 3 of the padded array, multiplies window `k` by column `k` of the
  weights (broadcast over batch and time) and adds the products to the broadcast bias, first window first. Window `k`
  at time `t` is the padded array at row `t + k`, which is the input at time `t + k - 3`, or zero before the start:
  the convolution of the specification, term by term and in its order.
-/
import proofs.«154310_j78855599554935_2_alg».proof.Proof.Gen.ReferenceIdeal.Read
import proofs.«154310_j78855599554935_2_alg».proof.Proof.Spec
import Idealize.ShloMosaic.Lib.ValueIdx

noncomputable section

open Idealize.ShloMosaic Idealize.ShloMosaic.ValueIdx

namespace Cert.ReferenceIdeal.RefValue

open Cert.ReferenceIdeal Cert.ReferenceIdeal.Read Cert.CausalConv

/-- The value the reference pads with: the integer zero, converted. -/
theorem padValue (i : S_.Idx) : val_main_call0_v0 (F := Ideal) i = 0 := by
  show (((0#32 : BitVec 32).toInt : ℝ) : EReal) = 0
  simp

/-- The padded input at (p, j, d): the input at time `j - 3` from row 3 on, zero on the three rows in front. -/
theorem padded_apply (x0 : S4x4096x2048.Idx → Ideal .f32) (p : Fin 4) (j : Fin 4099) (d : Fin 2048) :
    val_main_v0 (F := Ideal) x0 (ix3 p j d)
      = if h : 3 ≤ j.val then x0 (ix3 p ⟨j.val - 3, by omega⟩ d) else 0 := by
  unfold val_main_v0 pad
  dsimp only
  split
  · rename_i hin
    have h1 : 3 ≤ j.val := (hin 1).1
    rw [dif_pos h1]
    congr 1
    funext a
    apply Fin.ext
    match a with
    | ⟨0, _⟩ => show (p.val - 0) / (0 + 1) = p.val; simp
    | ⟨1, _⟩ => show (j.val - 3) / (0 + 1) = j.val - 3; simp
    | ⟨2, _⟩ => show (d.val - 0) / (0 + 1) = d.val; simp
  · rename_i hnot
    have h1 : ¬ 3 ≤ j.val := fun h => hnot fun a => by
      match a with
      | ⟨0, _⟩ => exact ⟨Nat.zero_le _, Nat.mod_one _, by show (p.val - 0) / (0 + 1) < 4; have := p.isLt; simp <;> omega⟩
      | ⟨1, _⟩ => exact ⟨h, Nat.mod_one _, by show (j.val - 3) / (0 + 1) < 4096; have := j.isLt; simp <;> omega⟩
      | ⟨2, _⟩ => exact ⟨Nat.zero_le _, Nat.mod_one _, by show (d.val - 0) / (0 + 1) < 2048; have := d.isLt; simp <;> omega⟩
    rw [dif_neg h1]
    exact padValue _

/-- Row `t + k` of the padded input is tap `k` of the window ending at time `t`. -/
theorem padded_eq_tap (x0 : S4x4096x2048.Idx → Ideal .f32) (k : Fin 4) (p : Fin 4) (t : Fin 4096) (d : Fin 2048)
    (j : Fin 4099) (hj : j.val = k.val + t.val) : val_main_v0 (F := Ideal) x0 (ix3 p j d) = tapAt x0 k p t d := by
  rw [padded_apply]
  by_cases h : 3 ≤ j.val
  · rw [dif_pos h, tapAt_of_le x0 k p t d ⟨j.val - 3, by have := t.isLt; have := k.isLt; omega⟩ (by show j.val - 3 + 3 = _; omega)]
  · rw [dif_neg h, tapAt_of_lt x0 k p t d (by omega)]

theorem tap0 (x0 : S4x4096x2048.Idx → Ideal .f32) (p : Fin 4) (t : Fin 4096) (d : Fin 2048) :
    val_main_v1 (F := Ideal) x0 (ix3 p t d) = tapAt x0 0 p t d := by
  rw [val_main_v1_apply]
  have e : idx_main_v1 (ix3 p t d) = ix3 p ⟨0 + t.val, by omega⟩ d :=
    funext fun a => by match a with | ⟨0, _⟩ => rfl | ⟨1, _⟩ => exact Fin.ext (Nat.zero_add _).symm | ⟨2, _⟩ => rfl
  rw [e]
  exact padded_eq_tap x0 0 p t d _ rfl

theorem tap1 (x0 : S4x4096x2048.Idx → Ideal .f32) (p : Fin 4) (t : Fin 4096) (d : Fin 2048) :
    val_main_v10 (F := Ideal) x0 (ix3 p t d) = tapAt x0 1 p t d := by
  rw [val_main_v10_apply]
  have e : idx_main_v10 (ix3 p t d) = ix3 p ⟨1 + t.val, by omega⟩ d :=
    funext fun a => by match a with | ⟨0, _⟩ => rfl | ⟨1, _⟩ => rfl | ⟨2, _⟩ => rfl
  rw [e]
  exact padded_eq_tap x0 1 p t d _ rfl

theorem tap2 (x0 : S4x4096x2048.Idx → Ideal .f32) (p : Fin 4) (t : Fin 4096) (d : Fin 2048) :
    val_main_v17 (F := Ideal) x0 (ix3 p t d) = tapAt x0 2 p t d := by
  rw [val_main_v17_apply]
  have e : idx_main_v17 (ix3 p t d) = ix3 p ⟨2 + t.val, by omega⟩ d :=
    funext fun a => by match a with | ⟨0, _⟩ => rfl | ⟨1, _⟩ => rfl | ⟨2, _⟩ => rfl
  rw [e]
  exact padded_eq_tap x0 2 p t d _ rfl

theorem tap3 (x0 : S4x4096x2048.Idx → Ideal .f32) (p : Fin 4) (t : Fin 4096) (d : Fin 2048) :
    val_main_v24 (F := Ideal) x0 (ix3 p t d) = tapAt x0 3 p t d := by
  rw [val_main_v24_apply]
  have e : idx_main_v24 (ix3 p t d) = ix3 p ⟨3 + t.val, by omega⟩ d :=
    funext fun a => by match a with | ⟨0, _⟩ => rfl | ⟨1, _⟩ => rfl | ⟨2, _⟩ => rfl
  rw [e]
  exact padded_eq_tap x0 3 p t d _ rfl

theorem weight0 (x1 : S2048x4.Idx → Ideal .f32) (p : Fin 4) (t : Fin 4096) (d : Fin 2048) :
    val_main_v5 (F := Ideal) x1 (ix3 p t d) = x1 (ix2 d 0) := by
  rw [val_main_v5_apply, val_main_v4_apply, val_main_v3_apply, val_main_v2_apply]
  congr 1
  funext a
  match a with
  | ⟨0, _⟩ => exact Fin.ext (Nat.div_one _)
  | ⟨1, _⟩ => rfl

theorem weight1 (x1 : S2048x4.Idx → Ideal .f32) (p : Fin 4) (t : Fin 4096) (d : Fin 2048) :
    val_main_v14 (F := Ideal) x1 (ix3 p t d) = x1 (ix2 d 1) := by
  rw [val_main_v14_apply, val_main_v13_apply, val_main_v12_apply, val_main_v11_apply]
  congr 1
  funext a
  match a with
  | ⟨0, _⟩ => exact Fin.ext (Nat.div_one _)
  | ⟨1, _⟩ => rfl

theorem weight2 (x1 : S2048x4.Idx → Ideal .f32) (p : Fin 4) (t : Fin 4096) (d : Fin 2048) :
    val_main_v21 (F := Ideal) x1 (ix3 p t d) = x1 (ix2 d 2) := by
  rw [val_main_v21_apply, val_main_v20_apply, val_main_v19_apply, val_main_v18_apply]
  congr 1
  funext a
  match a with
  | ⟨0, _⟩ => exact Fin.ext (Nat.div_one _)
  | ⟨1, _⟩ => rfl

theorem weight3 (x1 : S2048x4.Idx → Ideal .f32) (p : Fin 4) (t : Fin 4096) (d : Fin 2048) :
    val_main_v28 (F := Ideal) x1 (ix3 p t d) = x1 (ix2 d 3) := by
  rw [val_main_v28_apply, val_main_v27_apply, val_main_v26_apply, val_main_v25_apply]
  congr 1
  funext a
  match a with
  | ⟨0, _⟩ => exact Fin.ext (Nat.div_one _)
  | ⟨1, _⟩ => rfl

theorem bias (x2 : S2048.Idx → Ideal .f32) (p : Fin 4) (t : Fin 4096) (d : Fin 2048) :
    val_main_v8 (F := Ideal) x2 (ix3 p t d) = x2 (ix1 d) := by
  rw [val_main_v8_apply, val_main_v7_apply]
  congr 1
  funext a
  match a with
  | ⟨0, _⟩ => rfl

/-- The reference's result is the convolution of its three arguments. -/
theorem result_eq_conv (x0 : S4x4096x2048.Idx → Ideal .f32) (x1 : S2048x4.Idx → Ideal .f32) (x2 : S2048.Idx → Ideal .f32) :
    val_main_v30 (F := Ideal) x0 x1 x2 = conv x0 x1 x2 := by
  funext i
  obtain ⟨p, t, d, rfl⟩ : ∃ (p : Fin 4) (t : Fin 4096) (d : Fin 2048), i = ix3 p t d := ⟨i 0, i 1, i 2, eq_ix3 i⟩
  rw [conv_ix3, val_main_v30_apply, val_main_v23_apply, val_main_v16_apply, val_main_v9_apply, val_main_v29_apply,
    val_main_v22_apply, val_main_v15_apply, val_main_v6_apply, tap0, tap1, tap2, tap3, weight0, weight1, weight2, weight3,
    bias]
  rfl

end Cert.ReferenceIdeal.RefValue

end
-- ==== Proof.lean ====
/-
  A causal depthwise convolution along time, four taps per channel, computed two ways.

  The kernel walks a grid of 4 batches × 8 tiles of 512 time steps. At each point it copies the eight history rows it
  carries and the current tile into one staging array of 520 rows, reads the four windows of 512 rows that start at
  staging rows 5, 6, 7, 8, multiplies window `k` by weight row `k` and adds the products to the bias, first window first;
  then it keeps the tile's last eight rows as the next point's history (zeros at the first tile of a batch). The
  reference pads the whole input with three zero rows in front of the time axis and adds, in the same order, the four
  shifted copies of it times the four weight columns.

  Over the extended reals both results are, entry by entry, the one expression

      ((((b d + x̄ (t - 3) · w d 0) + x̄ (t - 2) · w d 1) + x̄ (t - 1) · w d 2) + x̄ t · w d 3

  with `x̄` the input continued by zero before time 0 (Proof/Spec.lean). No law of arithmetic is used beyond reading both
  programs at an entry: the sums have the same terms in the same order, so finiteness of the inputs is never needed.

  Proof/Body.lean reads what one run of the kernel body leaves (output block and history) as values; Proof/BodyAt.lean
  reads an entry of that block; Proof/Taps.lean identifies a staging row with a tap of the convolution;
  Proof/KernelValue.lean carries this over the grid (the history a point finds is the tile before, of the same batch)
  and from the 32 blocks to the result array; Proof/RefValue.lean reads the reference at an entry. The frames are the
  generated ones; the idealization rewrote nothing, so `preserves` is trivial.
-/
import proofs.«154310_j78855599554935_2_alg».proof.Defs
import proofs.«154310_j78855599554935_2_alg».proof.Proof.Gen.Kernel
import proofs.«154310_j78855599554935_2_alg».proof.Proof.Gen.Kernel.Frame
import proofs.«154310_j78855599554935_2_alg».proof.Proof.Gen.KernelIdeal
import proofs.«154310_j78855599554935_2_alg».proof.Proof.Gen.KernelIdeal.Frame
import proofs.«154310_j78855599554935_2_alg».proof.Proof.Gen.KernelIdeal.Value
import proofs.«154310_j78855599554935_2_alg».proof.Proof.Gen.ReferenceIdeal
import proofs.«154310_j78855599554935_2_alg».proof.Proof.Gen.ReferenceIdeal.Run
import proofs.«154310_j78855599554935_2_alg».proof.Proof.Gen.ReferenceIdeal.Read
import proofs.«154310_j78855599554935_2_alg».proof.Proof.Gen.Pre_finite_inputs
import proofs.«154310_j78855599554935_2_alg».proof.Proof.KernelValue
import proofs.«154310_j78855599554935_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the convolution of arguments that agree. -/
theorem algebraic : Cert.algebraic_KernelIdeal_ReferenceIdeal := by
  intro m ρ m' ρ' _ hagree
  refine ⟨fun c => Cert.CausalConv.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ConvValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, Cert.ReferenceIdeal.RefValue.result_eq_conv,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
